-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x16000000 : Shape := ⟨2, ![2, 16000000]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S8x1 .f32) (main_arg6 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x1 .f32 := Host.absf main_arg5
  let main_cst_6 : FVec F S_ .f32 := constant S_ .f32 0x7F800000#32
  let main_v20 : FVec F S8x1 .f32 := broadcastInDim S8x1 ![] bcast_S_S8x1 main_cst_6
  let main_v21 : IVec S8x1 1 := cmpf .olt main_v19 main_v20
  let main_c_7 : IVec S_ 1 := constantI S_ 1 1#1
  let main_v22 : IVec S_ 1 := (fun x v => Host.reduce IntOp.andi x v reducesTo_S8x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x8 .f32) (main_arg1 : FVec F S100000x8 .f32) (main_arg2 : IVec S2x16000000 32) (main_arg3 : FVec F S16x8 .f32) (main_arg4 : FVec F S8 .f32) (main_arg5 : FVec F S8x1 .f32) (main_arg6 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S100000x8 .f32 := Host.absf main_arg1
  let main_cst_0 : FVec F S_ .f32 := constant S_ .f32 0x7F800000#32
  let main_v5 : FVec F S100000x8 .f32 := broadcastInDim S100000x8 ![] bcast_S_S100000x8 main_cst_0
  let main_v6 : IVec S100000x8 1 := cmpf .olt main_v4 main_v5
  let main_c_1 : IVec S_ 1 := constantI S_ 1 1#1
  let main_v7 : IVec S_ 1 := (fun x v => Host.reduce IntOp.andi x v reducesTo_S100000x8_S_d0_1 h_S_) main_v6 main_c_1
  let main_v8 : IVec S_ 1 := andi main_v3 main_v7
  let main_v9 : FVec F S16x8 .f32 := Host.absf main_arg3
  let main_cst_2 : FVec F S_ .f32 := constant S_ .f32 0x7F800000#32
  let main_v10 : FVec F S16x8 .f32 := broadcastInDim S16x8 ![] bcast_S_S16x8 main_cst_2
  let main_v11 : IVec S16x8 1 := cmpf .olt main_v9 main_v10
  let main_c_3 : IVec S_ 1 := constantI S_ 1 1#1
  let main_v12 : IVec S_ 1 := (fun x v => Host.reduce IntOp.andi x v reducesTo_S16x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_v13 main_v16
-- ==== Kernel.lean ====
abbrev S100000x8 : Shape := ⟨2, ![100000, 8]⟩
abbrev S2x16000000 : Shape := ⟨2, ![2, 16000000]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x16000000 : Shape := ⟨2, ![1, 16000000]⟩
abbrev S16000000 : Shape := ⟨1, ![16000000]⟩
abbrev S_ : Shape := ⟨0, ![]⟩
abbrev S16023552 : Shape := ⟨1, ![16023552]⟩
abbrev S8x8 : Shape := ⟨2, ![8, 8]⟩
abbrev S16023552x1 : Shape := ⟨2, ![16023552, 1]⟩
abbrev S16023552x8 : Shape := ⟨2, ![16023552, 8]⟩
abbrev S32768x8 : Shape := ⟨2, ![32768, 8]⟩
abbrev S32768 : Shape := ⟨1, ![32768]⟩
abbrev S1x8 : Shape := ⟨2, ![1, 8]⟩

abbrev nBuf : Space → Nat
  | .hbm => 43
  | .vmem => 7
  | .smem => 0
  | _ => 0

abbrev bufTy : (tb : Table) → Fin (tcTables nBuf tb) → BufTy
  | .hbm, ⟨0, _⟩ => ⟨S100000x8, .f32⟩
  | .hbm, ⟨1, _⟩ => ⟨S100000x8, .f32⟩
  | .hbm, ⟨2, _⟩ => ⟨S2x16000000, .i32⟩
  | .hbm, ⟨3, _⟩ => ⟨S16x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .i32⟩
  | .hbm, ⟨12, _⟩ => ⟨S_, .i32⟩
  | .hbm, ⟨13, _⟩ => ⟨S16023552, .i32⟩
  | .hbm, ⟨14, _⟩ => ⟨S_, .i32⟩
  | .hbm, ⟨15, _⟩ => ⟨S_, .i32⟩
  | .hbm, ⟨16, _⟩ => ⟨S16023552, .i32⟩
  | .hbm, ⟨17, _⟩ => ⟨S8x8, .f32⟩
  | .hbm, ⟨18, _⟩ => ⟨S100000x8, .f32⟩
  | .hbm, ⟨19, _⟩ => ⟨S8x8, .f32⟩
  | .hbm, ⟨20, _⟩ => ⟨S100000x8, .f32⟩
  | .hbm, ⟨21, _⟩ => ⟨S_, .i32⟩
  | .hbm, ⟨22, _⟩ => ⟨S16023552, .i32⟩
  | .hbm, ⟨23, _⟩ => ⟨S16023552, .i1⟩
  | .hbm, ⟨24, _⟩ => ⟨S_, .i32⟩
  | .hbm, ⟨25, _⟩ => ⟨S16023552, .i32⟩
  | .hbm, ⟨26, _⟩ => ⟨S16023552, .i32⟩
  | .hbm, ⟨27, _⟩ => ⟨S16023552, .i32⟩
  | .hbm, ⟨28, _⟩ => ⟨S16023552x1, .i32⟩
  | .hbm, ⟨29, _⟩ => ⟨S16023552x8, .f32⟩
  | .hbm, ⟨30, _⟩ => ⟨S_, .i32⟩
  | .hbm, ⟨31, _⟩ => ⟨S16023552, .i32⟩
  | .hbm, ⟨32, _⟩ => ⟨S16023552, .i1⟩
  | .hbm, ⟨33, _⟩ => ⟨S_, .i32⟩
  | .hbm, ⟨34, _⟩ => ⟨S16023552, .i32⟩
  | .hbm, ⟨35, _⟩ => ⟨S16023552, .i32⟩
  | .hbm, ⟨36, _⟩ => ⟨S16023552, .i32⟩
  | .hbm, ⟨37, _⟩ => ⟨S16023552x1, .i32⟩
  | .hbm, ⟨38, _⟩ => ⟨S16023552x8, .f32⟩
  | .hbm, ⟨39, _⟩ => ⟨S16023552x8, .f32⟩
  | .hbm, ⟨40, _⟩ => ⟨S8, .f32⟩
  | .hbm, ⟨41, _⟩ => ⟨S16023552, .f32⟩
  | .hbm, ⟨42, _⟩ => ⟨S16000000, .f32⟩
  | .local _ .vmem, ⟨0, _⟩ => ⟨S32768x8, .f32⟩
  | .local _ .vmem, ⟨1, _⟩ => ⟨S32768x8, .f32⟩
  | .local _ .vmem, ⟨2, _⟩ => ⟨S8, .f32⟩
  | .local _ .vmem, ⟨3, _⟩ => ⟨S8, .f32⟩
  | .local _ .vmem, ⟨4, _⟩ => ⟨S1, .f32⟩
  | .local _ .vmem, ⟨5, _⟩ => ⟨S32768, .f32⟩
  | .local _ .vmem, ⟨6, _⟩ => ⟨S32768, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32768x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  pads_S16000000_S16023552_0235520 : S16000000.Pads (![0] : Fin 1 → Nat) ![23552] ![0] S16023552
  h_S_ : 0 < S_.numel
  slices_S16x8_S8x8_0_0 : S16x8.Slices ![0, 0] S8x8
  slices_S16x8_S8x8_8_0 : S16x8.Slices ![8, 0] S8x8
  bcast_S_S16023552 : S_.BroadcastsInDim S16023552 (![] : Fin 0 → Fin S16023552.rank)
  bcast_S16023552_S16023552x1_0 : S16023552.BroadcastsInDim S16023552x1 (![0] : Fin 1 → Fin S16023552x1.rank)
  shapeCasts_S8x1_S8 : S8x1.ShapeCasts S8
  inb_S32768x8_S32768x8_0_0 : ∀ a, (![0, 0] : Fin 2 → Nat) a + S32768x8.size a ≤ S32768x8.size a
  h_S32768x8 : 0 < S32768x8.numel
  shapeCasts_S32768x8_S32768x8 : S32768x8.ShapeCasts S32768x8
  inb_S8_S8_0 : ∀ a, (![0] : Fin 1 → Nat) a + S8.size a ≤ S8.size a
  h_S8 : 0 < S8.numel
  shapeCasts_S8_S1x8 : S8.ShapeCasts S1x8
  broadcasts_S1x8_S32768x8 : S1x8.Broadcasts S32768x8
  shapeCasts_S8_S8 : S8.ShapeCasts S8
  reduces_S32768x8_S32768 : S32768x8.Reduces [1] S32768
  inb_S1_S1_0 : ∀ a, (![0] : Fin 1 → Nat) a + S1.size a ≤ S1.size a
  h_S1 : 0 < S1.numel
  inpos_S1_p0 : ∀ a, (![0] : Fin 1 → Nat) a < S1.size a
  inb_S32768_S32768_0 : ∀ a, (![0] : Fin 1 → Nat) a + S32768.size a ≤ S32768.size a
  h_S32768 : 0 < S32768.numel
  slices_S16023552_S16000000_0 : S16023552.Slices ![0] S16000000
  dot_S100000x8_S8x8_S100000x8_1_0_0_1_n_n_wf : DotDims.WF S100000x8 S8x8 S100000x8 [1] [0] [0] [1] [] []
  gather_S100000x8_S16023552x1_S16023552x8_1_0_n_n_0_1_18_wf : GatherDims.WF S100000x8 S16023552x1 S16023552x8 [1] [0] [] [0] [] 1 ![1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x8.size a ≤ S16023552x8.size a
  hwx0_0 : ∀ i : grid0.Coords, EltTy.bits .f32 = 32 ∨ (Rect.block (s := S16023552x8) S32768x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32768.size a ≤ S16023552.size a
  hwx0_4 : ∀ i : grid0.Coords, EltTy.bits .f32 = 32 ∨ (Rect.block (s := S16023552) S32768.size (cc0_transform_4 i) (hinb0_4 i)).WholeWords (EltTy.packing .f32)

variable [Facts₀]

def dot_S100000x8_S8x8_S100000x8_1_0_0_1_n_n : DotDims S100000x8 S8x8 S100000x8 where
  lhsContracting := [1]
  rhsContracting := [0]
  lhsNonContracting := [0]
  rhsNonContracting := [1]
  lhsBatch := []
  rhsBatch := []
  wf := dot_S100000x8_S8x8_S100000x8_1_0_0_1_n_n_wf
def gather_S100000x8_S16023552x1_S16023552x8_1_0_n_n_0_1_18 : GatherDims S100000x8 S16023552x1 S16023552x8 where
  offsetDims := [1]
  collapsedSliceDims := [0]
  operandBatchingDims := []
  startIndicesBatchingDims := []
  startIndexMap := [0]
  indexVectorDim := 1
  sliceSizes := ![1, 8]
  wf := gather_S100000x8_S16023552x1_S16023552x8_1_0_n_n_0_1_18_wf

abbrev win0_0 : Pipeline.Window sig grid0 :=
  Pipeline.Window.ofSpec (Memref.whole main_v24) S32768x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S32768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x8 : Shape := ⟨2, ![100000, 8]⟩
abbrev S2x16000000 : Shape := ⟨2, ![2, 16000000]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S16000000x8 : Shape := ⟨2, ![16000000, 8]⟩
abbrev S16000000x16 : Shape := ⟨2, ![16000000, 16]⟩
abbrev S1x8 : Shape := ⟨2, ![1, 8]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S100000x8, .f32⟩
  | .hbm, ⟨2, _⟩ => ⟨S2x16000000, .i32⟩
  | .hbm, ⟨3, _⟩ => ⟨S16x8, .f32⟩
  | .hbm, ⟨4, _⟩ => ⟨S8, .f32⟩
  | .hbm, ⟨5, _⟩ => ⟨S8x1, .f32⟩
  | .hbm, ⟨6, _⟩ => ⟨S1, .f32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S16000000x8, .f32⟩
  | .hbm, ⟨20, _⟩ => ⟨S_, .i32⟩
  | .hbm, ⟨21, _⟩ => ⟨S16000000, .i32⟩
  | .hbm, ⟨22, _⟩ => ⟨S16000000, .i1⟩
  | .hbm, ⟨23, _⟩ => ⟨S_, .i32⟩
  | .hbm, ⟨24, _⟩ => ⟨S16000000, .i32⟩
  | .hbm, ⟨25, _⟩ => ⟨S16000000, .i32⟩
  | .hbm, ⟨26, _⟩ => ⟨S16000000, .i32⟩
  | .hbm, ⟨27, _⟩ => ⟨S16000000x1, .i32⟩
  | .hbm, ⟨28, _⟩ => ⟨S16000000x8, .f32⟩
  | .hbm, ⟨29, _⟩ => ⟨S16000000x16, .f32⟩
  | .hbm, ⟨30, _⟩ => ⟨S16000000x8, .f32⟩
  | .hbm, ⟨31, _⟩ => ⟨S1x8, .f32⟩
  | .hbm, ⟨32, _⟩ => ⟨S16000000x8, .f32⟩
  | .hbm, ⟨33, _⟩ => ⟨S16000000x8, .f32⟩
  | .hbm, ⟨34, _⟩ => ⟨S_, .f32⟩
  | .hbm, ⟨35, _⟩ => ⟨S16000000x8, .f32⟩
  | .hbm, ⟨36, _⟩ => ⟨S16000000x8, .f32⟩
  | .hbm, ⟨37, _⟩ => ⟨S16000000x1, .f32⟩
  | .hbm, ⟨38, _⟩ => ⟨S1x1, .f32⟩
  | .hbm, ⟨39, _⟩ => ⟨S16000000x1, .f32⟩
  | .hbm, ⟨40, _⟩ => ⟨S16000000x1, .f32⟩
  | .hbm, ⟨41, _⟩ => ⟨S16000000x1, .f32⟩
  | .hbm, ⟨42, _⟩ => ⟨S16000000x1, .f32⟩
  | .hbm, ⟨43, _⟩ => ⟨S_, .f32⟩
  | .hbm, ⟨44, _⟩ => ⟨S16000000x1, .f32⟩
  | .hbm, ⟨45, _⟩ => ⟨S16000000x1, .f32⟩
  | .hbm, ⟨46, _⟩ => ⟨S_, .f32⟩
  | .hbm, ⟨47, _⟩ => ⟨S16000000x1, .f32⟩
  | .hbm, ⟨48, _⟩ => ⟨S16000000x1, .f32⟩
  | .hbm, ⟨49, _⟩ => ⟨S16000000, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  concatenates_S16000000x8_S16000000x8_S16000000x16_d1 : Shape.Concatenates [S16000000x8, S16000000x8] S16000000x16 1
  bcast_S8_S1x8_1 : S8.BroadcastsInDim S1x8 (![1] : Fin 1 → Fin S1x8.rank)
  bcast_S1x8_S16000000x8_0_1 : S1x8.BroadcastsInDim S16000000x8 (![0, 1] : Fin 2 → Fin S16000000x8.rank)
  bcast_S_S16000000x8 : S_.BroadcastsInDim S16000000x8 (![] : Fin 0 → Fin S16000000x8.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  bcast_S_S16000000x1 : S_.BroadcastsInDim S16000000x1 (![] : Fin 0 → Fin S16000000x1.rank)
  shapeCasts_S16000000x1_S16000000 : S16000000x1.ShapeCasts S16000000
  gather_S100000x8_S16000000x1_S16000000x8_1_0_n_n_0_1_18_wf : GatherDims.WF S100000x8 S16000000x1 S16000000x8 [1] [0] [] [0] [] 1 ![1, 8]
  dot_S16000000x16_S16x8_S16000000x8_1_0_0_1_n_n_wf : DotDims.WF S16000000x16 S16x8 S16000000x8 [1] [0] [0] [1] [] []
  dot_S16000000x8_S8x1_S16000000x1_1_0_0_1_n_n_wf : DotDims.WF S16000000x8 S8x1 S16000000x1 [1] [0] [0] [1] [] []

variable [Facts₀]

def gather_S100000x8_S16000000x1_S16000000x8_1_0_n_n_0_1_18 : GatherDims S100000x8 S16000000x1 S16000000x8 where
  offsetDims := [1]
  collapsedSliceDims := [0]
  operandBatchingDims := []
  startIndicesBatchingDims := []
  startIndexMap := [0]
  indexVectorDim := 1
  sliceSizes := ![1, 8]
  wf := gather_S100000x8_S16000000x1_S16000000x8_1_0_n_n_0_1_18_wf
def dot_S16000000x16_S16x8_S16000000x8_1_0_0_1_n_n : DotDims S16000000x16 S16x8 S16000000x8 where
  lhsContracting := [1]
  rhsContracting := [0]
  lhsNonContracting := [0]
  rhsNonContracting := [1]
  lhsBatch := []
  rhsBatch := []
  wf := dot_S16000000x16_S16x8_S16000000x8_1_0_0_1_n_n_wf
def dot_S16000000x8_S8x1_S16000000x1_1_0_0_1_n_n : DotDims S16000000x8 S8x1 S16000000x1 where
  lhsContracting := [1]
  rhsContracting := [0]
  lhsNonContracting := [0]
  rhsNonContracting := [1]
  lhsBatch := []
  rhsBatch := []
  wf := dot_S16000000x8_S8x1_S16000000x1_1_0_0_1_n_n_wf

class Facts : Prop extends Facts₀ where

variable [Facts]
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.EdgeSpec.lean ====
/-
  The edge decoder as ONE function of the argument arrays, on the extended reals.

  An edge e names a demand node and a measurement node: the two entries (0, e) and (1, e) of the integer
  index array, each read as a signed word, a negative word moved up by the table's length 100000 (Python's
  wrap-around), and the result clamped into the table.  With r and c the two nodes,
      hidden_j = max ( Σ_{k<8} zd[r,k] · w1[k,j]  +  Σ_{k<8} zm[c,k] · w1[8+k,j]  +  b1[j] , 0 )      (j < 8)
      logit    = Σ_{j<8} hidden_j · w2[j,0]  +  b2[0]
      result   = 1 / (1 + e^(-logit)).
  The first layer is written with its 16-term contraction already split at the seam between the two
  embeddings: a sum over Fin (8 + 8) is the sum over its first 8 indices plus the sum over its last 8, in any
  commutative additive monoid, so on the extended reals this needs nothing of the entries.
-/
import Idealize.ShloMosaic.Lib.ValueIdx
import Idealize.ShloMosaic.PureOps.Ideal
import Idealize.ShloMosaic.PureOps.Ideal.Laws
import proofs.«102454_j81071802679525_2_alg».proof.Proof.LibRowGather

noncomputable section

namespace Cert.EdgeSpec

open Idealize.ShloMosaic Idealize.ShloMosaic.ValueIdx Idealize.ShloMosaic.RowGather

/-- The word `1.0` denotes the real 1. -/
theorem ofBits_one : Ideal.ofBits .f32 0x3F800000#32 = 1 := by
  simp [Ideal.ofBits, Ideal.ieee, -EReal.coe_mul]; norm_num

/-- Python's wrap of a negative index into a table of 100000 rows: a word below zero has 100000 added. -/
def wrapIx (v : BitVec 32) : BitVec 32 :=
  Scalar.select (IntOp.cmpi .slt v 0#32) (IntOp.addi v 100000#32) v

/-- The node an index word names: the wrapped word read signed and clamped into [0, 99999]. -/
def nodeOf (v : BitVec 32) : Fin 100000 := clampRow 100000 (by decide) (wrapIx v)

/-- Hidden unit `j` of an edge between demand node `r` and measurement node `c`. -/
def hidden (zd zm : (⟨2, ![100000, 8]⟩ : Shape).Idx → EReal) (w1 : (⟨2, ![16, 8]⟩ : Shape).Idx → EReal)
    (b1 : (⟨1, ![8]⟩ : Shape).Idx → EReal) (r c : Fin 100000) (j : Fin 8) : EReal :=
  max (((∑ k : Fin 8, zd (ix2 r k) * w1 (ix2 (Fin.castAdd 8 k) j))
        + (∑ k : Fin 8, zm (ix2 c k) * w1 (ix2 (Fin.natAdd 8 k) j))) + b1 (ix1 j)) 0

/-- The edge's logit. -/
def logit (zd zm : (⟨2, ![100000, 8]⟩ : Shape).Idx → EReal) (w1 : (⟨2, ![16, 8]⟩ : Shape).Idx → EReal)
    (b1 : (⟨1, ![8]⟩ : Shape).Idx → EReal) (w2 : (⟨2, ![8, 1]⟩ : Shape).Idx → EReal)
    (b2 : (⟨1, ![1]⟩ : Shape).Idx → EReal) (r c : Fin 100000) : EReal :=
  (∑ j : Fin 8, hidden zd zm w1 b1 r c j * w2 (ix2 j (0 : Fin 1))) + b2 (ix1 (0 : Fin 1))

/-- The result array: one probability per edge. -/
def edgeProb (zd zm : (⟨2, ![100000, 8]⟩ : Shape).Idx → EReal) (x2 : (⟨2, ![2, 16000000]⟩ : Shape).Idx → BitVec 32)
    (w1 : (⟨2, ![16, 8]⟩ : Shape).Idx → EReal) (b1 : (⟨1, ![8]⟩ : Shape).Idx → EReal)
    (w2 : (⟨2, ![8, 1]⟩ : Shape).Idx → EReal) (b2 : (⟨1, ![1]⟩ : Shape).Idx → EReal) :
    (⟨1, ![16000000]⟩ : Shape).Idx → EReal := fun i =>
  Ideal.logistic (logit zd zm w1 b1 w2 b2 (nodeOf (x2 (ix2 (0 : Fin 2) (i 0)))) (nodeOf (x2 (ix2 (1 : Fin 2) (i 0)))))

/-- The 16-term contraction over the joined embedding splits at the seam. -/
theorem sum_split16 {M : Type} [AddCommMonoid M] (f : Fin 16 → M) :
    ∑ k : Fin 16, f k = (∑ k : Fin 8, f (Fin.castAdd 8 k)) + ∑ k : Fin 8, f (Fin.natAdd 8 k) :=
  Fin.sum_univ_add (a := 8) (b := 8) f

end Cert.EdgeSpec

end
-- ==== Proof.RefEdge.lean ====
/-
  The reference program's result IS the edge decoder of EdgeSpec, index by index, at the ideal values.

  Read one operation at a time (the generated stage lemmas): the two index rows are slices of the index
  array, wrapped where negative; each gather reads the table's row at the clamped index; the concatenation
  puts the demand row in columns 0..7 and the measurement row in columns 8..15, so the 16-term contraction
  with w1 splits at the seam into the two 8-term sums of the specification; then bias, max with zero, the
  8-term contraction with w2, bias, and 1 / (1 + e^(-x)).
-/
import proofs.«102454_j81071802679525_2_alg».proof.Proof.Gen.ReferenceIdeal.Read
import proofs.«102454_j81071802679525_2_alg».proof.Proof.EdgeSpec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Idealize.ShloMosaic.RowGather
open Cert.EdgeSpec

variable (x0 x1 : (⟨S100000x8, .f32⟩ : BufTy).Contents (Elt Ideal)) (x2 : (⟨S2x16000000, .i32⟩ : BufTy).Contents (Elt Ideal))
  (x3 : (⟨S16x8, .f32⟩ : BufTy).Contents (Elt Ideal)) (x4 : (⟨S8, .f32⟩ : BufTy).Contents (Elt Ideal))
  (x5 : (⟨S8x1, .f32⟩ : BufTy).Contents (Elt Ideal)) (x6 : (⟨S1, .f32⟩ : BufTy).Contents (Elt Ideal))

/-- The demand-side index word of edge `e`, wrapped: entry (0, e) of the index array. -/
theorem row_word (e : Fin 16000000) : val_main_v8 (F := Ideal) x2 (ix1 e) = wrapIx (x2 (ix2 (0 : Fin 2) e)) := by
  have hi : idx_main_v0 (idx_main_v1 (ix1 e)) = ix2 (0 : Fin 2) e := funext fun a => Fin.ext (by
    match a with
    | ⟨0, _⟩ => rfl
    | ⟨1, _⟩ => exact Nat.mod_eq_of_lt e.isLt)
  rw [val_main_v8_apply, val_main_v5_apply, val_main_v7_apply, val_main_v1_apply, val_main_v0_apply, val_main_v4_apply,
    val_main_c_apply, val_main_v6_apply, val_main_c_0_apply, hi]
  rfl

/-- The measurement-side index word of edge `e`, wrapped: entry (1, e) of the index array. -/
theorem col_word (e : Fin 16000000) : val_main_v15 (F := Ideal) x2 (ix1 e) = wrapIx (x2 (ix2 (1 : Fin 2) e)) := by
  have hi : idx_main_v2 (idx_main_v3 (ix1 e)) = ix2 (1 : Fin 2) e := funext fun a => Fin.ext (by
    match a with
    | ⟨0, _⟩ => rfl
    | ⟨1, _⟩ => exact Nat.mod_eq_of_lt e.isLt)
  rw [val_main_v15_apply, val_main_v12_apply, val_main_v14_apply, val_main_v3_apply, val_main_v2_apply, val_main_v11_apply,
    val_main_c_1_apply, val_main_v13_apply, val_main_c_2_apply, hi]
  rfl

/-- The first gather at (e, k): the demand table's row of edge `e`'s node. -/
theorem demand_row (e : Fin 16000000) (k : Fin 8) :
    val_main_v10 (F := Ideal) x0 x2 (ix2 e k) = x0 (ix2 (nodeOf (x2 (ix2 (0 : Fin 2) e))) k) := by
  unfold val_main_v10
  refine (gather_rows_apply (by decide) _ x0 _ e k).trans ?_
  have hi : idx_main_v9 (ix2 e (0 : Fin 1)) = ix1 e := funext fun a => Fin.ext (by
    match a with
    | ⟨0, _⟩ => rfl)
  rw [val_main_v9_apply, hi, row_word]
  rfl

/-- The second gather at (e, k): the measurement table's row of edge `e`'s node. -/
theorem measurement_row (e : Fin 16000000) (k : Fin 8) :
    val_main_v17 (F := Ideal) x1 x2 (ix2 e k) = x1 (ix2 (nodeOf (x2 (ix2 (1 : Fin 2) e))) k) := by
  unfold val_main_v17
  refine (gather_rows_apply (by decide) _ x1 _ e k).trans ?_
  have hi : idx_main_v16 (ix2 e (0 : Fin 1)) = ix1 e := funext fun a => Fin.ext (by
    match a with
    | ⟨0, _⟩ => rfl)
  rw [val_main_v16_apply, hi, col_word]
  rfl

/-- Columns 0..7 of the joined embedding are the demand row. -/
theorem joined_left (e : Fin 16000000) (k : Fin 8) :
    val_main_v18 (F := Ideal) x0 x1 x2 (ix2 e (Fin.castAdd 8 k)) = val_main_v10 (F := Ideal) x0 x2 (ix2 e k) := by
  unfold val_main_v18
  exact concatenate_pair_apply_left 1 _ _ concatenates_S16000000x8_S16000000x8_S16000000x16_d1 _ rfl (ix2 e k) (fun b => by
    match b with
    | ⟨0, _⟩ => rfl
    | ⟨1, _⟩ => rfl)

/-- Columns 8..15 of the joined embedding are the measurement row. -/
theorem joined_right (e : Fin 16000000) (k : Fin 8) :
    val_main_v18 (F := Ideal) x0 x1 x2 (ix2 e (Fin.natAdd 8 k)) = val_main_v17 (F := Ideal) x1 x2 (ix2 e k) := by
  unfold val_main_v18
  exact concatenate_pair_apply_right 1 _ _ concatenates_S16000000x8_S16000000x8_S16000000x16_d1 _ rfl rfl (ix2 e k) (fun b hb => by
    match b with
    | ⟨0, _⟩ => rfl
    | ⟨1, _⟩ => exact absurd rfl hb) (by show k.val + 8 = 8 + k.val; omega)

/-- The first layer at (e, j) is the specification's hidden unit. -/
theorem hidden_eq (e : Fin 16000000) (j : Fin 8) :
    val_main_v23 (F := Ideal) x0 x1 x2 x3 x4 (ix2 e j)
      = hidden x0 x1 x3 x4 (nodeOf (x2 (ix2 (0 : Fin 2) e))) (nodeOf (x2 (ix2 (1 : Fin 2) e))) j := by
  have hl : ∀ k : Fin 16, lidx_main_v19 (ix2 e j) k = ix2 e k := fun k => funext fun a => Fin.ext (by
    match a with
    | ⟨0, _⟩ => rfl
    | ⟨1, _⟩ => rfl)
  have hr : ∀ k : Fin 16, ridx_main_v19 (ix2 e j) k = ix2 k j := fun k => funext fun a => Fin.ext (by
    match a with
    | ⟨0, _⟩ => rfl
    | ⟨1, _⟩ => rfl)
  have hb : idx_main_v20 (idx_main_v21 (ix2 e j)) = ix1 j := funext fun a => Fin.ext (by
    match a with
    | ⟨0, _⟩ => rfl)
  rw [val_main_v23_apply, val_main_v22_apply, val_main_v19_apply, val_main_call0_v0_apply, val_main_call0_cst_apply,
    val_main_v21_apply, val_main_v20_apply, hb, sum_split16]
  simp only [hl, hr, joined_left, joined_right, demand_row, measurement_row]
  simp only [Ideal.maximumf_def, Ideal.addf_def, Ideal.ofBits_def, Ideal.ofBits_zero_f32]
  rfl

/-- THE REFERENCE'S RESULT is the edge decoder of the argument arrays. -/
theorem result_eq :
    val_main_v34 (F := Ideal) x0 x1 x2 x3 x4 x5 x6 = edgeProb x0 x1 x2 x3 x4 x5 x6 := by
  funext i
  obtain ⟨e, rfl⟩ : ∃ e : Fin 16000000, i = ix1 e := ⟨i 0, eq_ix1 i⟩
  have h34 : idx_main_v34 (ix1 e) = ix2 e (0 : Fin 1) := funext fun a => Fin.ext (by
    match a with
    | ⟨0, _⟩ => exact Nat.div_one _
    | ⟨1, _⟩ => rfl)
  have hl : ∀ k : Fin 8, lidx_main_v24 (ix2 e (0 : Fin 1)) k = ix2 e k := fun k => funext fun a => Fin.ext (by
    match a with
    | ⟨0, _⟩ => rfl
    | ⟨1, _⟩ => rfl)
  have hr : ∀ k : Fin 8, ridx_main_v24 (ix2 e (0 : Fin 1)) k = ix2 k (0 : Fin 1) := fun k => funext fun a => Fin.ext (by
    match a with
    | ⟨0, _⟩ => rfl
    | ⟨1, _⟩ => rfl)
  have hb : idx_main_v25 (idx_main_v26 (ix2 e (0 : Fin 1))) = ix1 (0 : Fin 1) := funext fun a => Fin.ext (by
    match a with
    | ⟨0, _⟩ => rfl)
  rw [val_main_v34_apply, h34, val_main_v33_apply, val_main_v32_apply, val_main_cst_3_apply, val_main_v31_apply,
    val_main_v30_apply, val_main_cst_apply, val_main_v29_apply, val_main_v28_apply, val_main_v27_apply,
    val_main_v24_apply, val_main_v26_apply, val_main_v25_apply, hb]
  simp only [hl, hr, hidden_eq]
  simp only [Ideal.hostDivf_def, Ideal.addf_def, Ideal.ofBits_def, Ideal.hostUnary_exp_def, Ideal.hostNegf_def,
    Ideal.negf_def, ofBits_one]
  rfl

end Cert.ReferenceIdeal.RefValue

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.TilePayload.lean ====
/-
  What the kernel body stores, read at a row.

  One grid point holds a tile of 32768 edges, each a row of 8 pre-activation sums.  The body adds the bias row,
  takes the maximum with zero, multiplies by the second layer's weights, sums the 8 lanes of each row, adds the
  second bias and applies 1 / (1 + e^(-x)).  At row p the stored value is therefore `rowProb` of that row.
-/
import proofs.«102454_j81071802679525_2_alg».proof.Proof.Gen.KernelIdeal.Skeleton
import proofs.«102454_j81071802679525_2_alg».proof.Proof.LibColumns
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-- The probability of one edge from its 8 pre-activation sums `s`:
    1 / (1 + e^(-x)) at x = Σ_j max (s_j + b1_j, 0) · w2_j + b2. -/
def rowProb (s : Fin 8 → EReal) (b1 w2 : (⟨1, ![8]⟩ : Shape).Idx → EReal) (b2 : (⟨1, ![1]⟩ : Shape).Idx → EReal) : EReal :=
  Ideal.logistic ((∑ j : Fin 8, max (s j + b1 (ix1 j)) 0 * w2 (ix1 j)) + b2 (ix1 (0 : Fin 1)))

/-- An 8-vector laid as one row and repeated down the tile reads, at (p, j), the vector at j. -/
theorem row_repeat (v : Vec Ideal S8 .f32) (p : Fin 32768) (j : Fin 8) :
    broadcastTo S32768x8 (shapeCast S1x8 v shapeCasts_S8_S1x8) broadcasts_S1x8_S32768x8 (ix2 p j) = v (ix1 j) := by
  refine (broadcastTo_apply _ broadcasts_S1x8_S32768x8 (ix2 p j) (ix2 (0 : Fin 1) j) (fun a => ?_)).trans ?_
  · match a with
    | ⟨0, _⟩ => show (0 : Nat) = if (1 : Nat) = 1 then 0 else _; rw [if_pos rfl]
    | ⟨1, _⟩ => show j.val = if (8 : Nat) = 1 then 0 else _; rw [if_neg (by decide)]; rfl
  · exact shapeCast_apply v shapeCasts_S8_S1x8 (ix2 (0 : Fin 1) j) (ix1 j) (by
      rw [Shape.rowMajor_val_two, Shape.rowMajor_val_one]; show j.val = 0 * 8 + j.val; omega)

/-- A lane sum with a scalar added to every row, then 1 / (1 + e^(-x)), read at row p. -/
theorem lane_total (src : FVec Ideal S32768x8 .f32) (b : Ideal .f32) (p : Fin 32768)
    (hacc : (0x00000000#32 : BitVec 32) = 0x00000000#32) :
    logistic (addf (multiReduction .add [1] S32768 src 0x00000000#32 reduces_S32768x8_S32768 (.inl rfl) hacc)
      (broadcast S32768 b)) (ix1 p) = Ideal.logistic ((∑ k : Fin 8, src (ix2 p k)) + b) := by
  simp only [logistic, addf, broadcast]
  rw [Ideal.logistic_def, Ideal.addf_def, Cert.Columns.laneSum_apply src _ reduces_S32768x8_S32768 (.inl rfl) hacc p]

/-- One lane's term: the biased, rectified pre-activation times the second layer's weight. -/
theorem lane_term (v0 : Vec Ideal S32768x8 .f32) (v2 v8 : Vec Ideal S8 .f32) (p : Fin 32768) (j : Fin 8) :
    mulf (maximumf (addf (shapeCast S32768x8 v0 shapeCasts_S32768x8_S32768x8)
        (broadcastTo S32768x8 (shapeCast S1x8 v2 shapeCasts_S8_S1x8) broadcasts_S1x8_S32768x8))
        (broadcast S32768x8 (Scalar.ofBits (F := Ideal) .f32 0x00000000#32)))
      (broadcastTo S32768x8 (shapeCast S1x8 (shapeCast S8 v8 shapeCasts_S8_S8) shapeCasts_S8_S1x8) broadcasts_S1x8_S32768x8) (ix2 p j)
      = max (v0 (ix2 p j) + v2 (ix1 j)) 0 * v8 (ix1 j) := by
  show max (shapeCast S32768x8 v0 shapeCasts_S32768x8_S32768x8 (ix2 p j)
        + broadcastTo S32768x8 (shapeCast S1x8 v2 shapeCasts_S8_S1x8) broadcasts_S1x8_S32768x8 (ix2 p j))
          (Ideal.ofBits .f32 0x00000000#32)
        * broadcastTo S32768x8 (shapeCast S1x8 (shapeCast S8 v8 shapeCasts_S8_S8) shapeCasts_S8_S1x8) broadcasts_S1x8_S32768x8 (ix2 p j) = _
  rw [shapeCast_self, shapeCast_self, row_repeat, row_repeat, Ideal.ofBits_zero_f32]

/-- The one entry of the second bias. -/
theorem second_bias (v14 : Vec Ideal S1 .f32) : extractAt ![0] v14 inpos_S1_p0 = v14 (ix1 (0 : Fin 1)) :=
  congrArg v14 (funext fun a => Fin.ext (by
    match a with
    | ⟨0, _⟩ => rfl))

/-- THE PAYLOAD AT ROW p. -/
theorem payload_apply (v0 : Vec Ideal S32768x8 .f32) (v2 v8 : Vec Ideal S8 .f32) (v14 : Vec Ideal S1 .f32) (p : Fin 32768) :
    k0_pay1 (F := Ideal) v0 v2 v8 v14 (ix1 p) = rowProb (fun j => v0 (ix2 p j)) v2 v8 v14 := by
  unfold k0_pay1 rowProb
  refine (lane_total _ _ p rfl).trans ?_
  exact congrArg Ideal.logistic (congrArg₂ (· + ·) (Finset.sum_congr rfl fun j _ => lane_term v0 v2 v8 p j) (second_bias v14))

end Cert.KernelIdeal.Hand

end
-- ==== Proof.TileBlocks.lean ====
/-
  From tiles to the whole array.  Grid point t of 489 stages rows 32768·t … 32768·t + 32767 of the edge sums
  (and the three small arrays whole), stores `rowProb` of each row, and writes the tile back as entries
  32768·t … 32768·t + 32767 of the result.  The tiles cover the result, so after the run entry i of the result
  array is `rowProb` of row i of the edge sums.
-/
import proofs.«102454_j81071802679525_2_alg».proof.Proof.Gen.KernelIdeal.Frame
import proofs.«102454_j81071802679525_2_alg».proof.Proof.TilePayload
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The result array over all 489 tiles: entry i is `rowProb` of row i of the staged sums. -/
def tileOut (S : S16023552x8.Idx → EReal) (b1 w2 : S8.Idx → EReal) (b2 : S1.Idx → EReal) : S16023552.Idx → EReal :=
  fun i => rowProb (fun j => S (ix2 (⟨(i 0).val, (i 0).isLt⟩ : Fin 16023552) j)) b1 w2 b2

theorem hz1 : (![0] : Fin 1 → Nat) = fun _ => 0 := funext fun a => by
  match a with
  | ⟨0, _⟩ => rfl
theorem hz2 : (![0, 0] : Fin 2 → Nat) = fun _ => 0 := funext fun a => by
  match a with
  | ⟨0, _⟩ => rfl
  | ⟨1, _⟩ => rfl

/-- The printed index maps over the grid: the big windows move with the point, the small ones stay. -/
theorem idx_facts : ∀ t : Fin cfg0.N, win0_0.index t (0 : Fin 2) = t.val ∧ win0_0.index t (1 : Fin 2) = 0
    ∧ win0_1.index t (0 : Fin 1) = 0 ∧ win0_2.index t (0 : Fin 1) = 0 ∧ win0_3.index t (0 : Fin 1) = 0
    ∧ win0_4.index t (0 : Fin 1) = t.val :=
  (by decide +kernel : ∀ t : Fin grid0.N, _)

/-- The body's store read at an entry of the tile, over variables of the literal types. -/
theorem tile_read (x0 : Vec Ideal S32768x8 .f32) (x1 x2 : Vec Ideal S8 .f32) (x3 : Vec Ideal S1 .f32) (y : S32768.Idx) :
    k0_pay1 (F := Ideal) x0 x1 x2 x3 y
      = rowProb (fun j => x0 (ix2 (⟨(y 0).val, (y 0).isLt⟩ : Fin 32768) j)) x1 x2 x3 := by
  obtain ⟨p, rfl⟩ : ∃ p : Fin 32768, y = ix1 p := ⟨⟨(y 0).val, (y 0).isLt⟩, funext fun a => by
    match a with
    | ⟨0, _⟩ => rfl⟩
  exact payload_apply x0 x1 x2 x3 p

/-- The first window's block at point t: rows 32768·t … of the staged array. -/
theorem block0_apply (c : Dev nD) (t : Fin cfg0.N) (x : S32768x8.Idx) (k : S16023552x8.Idx)
    (hk0 : (k 0).val = 32768 * t.val + (x 0).val) (hk1 : (k 1).val = (x 1).val) :
    (iblk m c 0 t : Vec Ideal S32768x8 .f32) x = (V m c main_v24 : S16023552x8.Idx → EReal) k := by
  obtain ⟨e0, e1, -⟩ := idx_facts t
  unfold iblk
  rw [View.read_apply]
  show V m c main_v24 (((cfg0.win 0).blk t).view.emb x) = V m c main_v24 k
  refine congrArg (V m c main_v24) ?_
  funext a; apply Fin.ext
  match a with
  | ⟨0, _⟩ => show win0_0.index t (0 : Fin 2) * 32768 + 1 * (x 0).val = (k 0).val; rw [e0, hk0]; omega
  | ⟨1, _⟩ => show win0_0.index t (1 : Fin 2) * 8 + 1 * (x 1).val = (k 1).val; rw [e1, hk1]; omega

/-- The small windows' blocks are their whole arrays, at every point. -/
theorem block1_eq (c : Dev nD) (t : Fin cfg0.N) : (iblk m c 1 t : Vec Ideal S8 .f32) = V m c main_arg4 := by
  obtain ⟨-, -, e2, -⟩ := idx_facts t
  unfold iblk
  funext x
  rw [View.read_apply]
  show V m c main_arg4 (((cfg0.win 1).blk t).view.emb x) = V m c main_arg4 x
  refine congrArg (V m c main_arg4) ?_
  funext a; apply Fin.ext
  match a with
  | ⟨0, _⟩ => show win0_1.index t (0 : Fin 1) * 8 + 1 * (x 0).val = (x 0).val; rw [e2]; omega
theorem block2_eq (c : Dev nD) (t : Fin cfg0.N) : (iblk m c 2 t : Vec Ideal S8 .f32) = V m c main_v25 := by
  obtain ⟨-, -, -, e3, -⟩ := idx_facts t
  unfold iblk
  funext x
  rw [View.read_apply]
  show V m c main_v25 (((cfg0.win 2).blk t).view.emb x) = V m c main_v25 x
  refine congrArg (V m c main_v25) ?_
  funext a; apply Fin.ext
  match a with
  | ⟨0, _⟩ => show win0_2.index t (0 : Fin 1) * 8 + 1 * (x 0).val = (x 0).val; rw [e3]; omega
theorem block3_eq (c : Dev nD) (t : Fin cfg0.N) : (iblk m c 3 t : Vec Ideal S1 .f32) = V m c main_arg6 := by
  obtain ⟨-, -, -, -, e4, -⟩ := idx_facts t
  unfold iblk
  funext x
  rw [View.read_apply]
  show V m c main_arg6 (((cfg0.win 3).blk t).view.emb x) = V m c main_arg6 x
  refine congrArg (V m c main_arg6) ?_
  funext a; apply Fin.ext
  match a with
  | ⟨0, _⟩ => show win0_3.index t (0 : Fin 1) * 1 + 1 * (x 0).val = (x 0).val; rw [e4]; omega

/-- WHAT POINT t WRITES BACK is tile t of `tileOut` of the arrays as the region finds them. -/
theorem flushed_eq (c : Dev nD) (t : Fin cfg0.N) :
    (dats m 0 c).flushed 4 t = ((cfg0.win 4).blk t).view.read (Elt Ideal)
      (tileOut (V m c main_v24) (V m c main_arg4) (V m c main_v25) (V m c main_arg6)) := by
  show (cfg0.win 4).cut (grid0.coords t) ((dats m 0 c).after 4 t) = _
  rw [after0_4]
  unfold out0_4
  rw [View.canon_unit_zero hz1]
  simp only [View.ld_unit_zero (S := S32768x8) hz2, View.ld_unit_zero (S := S8) hz1, View.ld_unit_zero (S := S1) hz1]
  rw [block1_eq, block2_eq, block3_eq]
  obtain ⟨-, -, -, -, -, e5⟩ := idx_facts t
  funext y
  refine (tile_read _ _ _ _ y).trans ?_
  rw [View.read_apply]
  unfold tileOut
  refine congrArg (fun s => rowProb s (V m c main_arg4) (V m c main_v25) (V m c main_arg6)) (funext fun j => ?_)
  refine block0_apply m c t _ _ ?_ rfl
  show (((cfg0.win 4).blk t).view.emb y 0).val = 32768 * t.val + (y 0).val
  show win0_4.index t (0 : Fin 1) * 32768 + 1 * (y 0).val = 32768 * t.val + (y 0).val
  rw [e5]; omega

/-- An entry of the result lies in point t's tile iff it lies in the tile's range. -/
theorem mem_tile (t : Fin cfg0.N) (i : S16023552.Idx) :
    i ∈ ((cfg0.win 4).blk t).view.set ↔ ∀ a : Fin 1, win0_4.index t a * S32768.size a ≤ (i a).val
      ∧ (i a).val < win0_4.index t a * S32768.size a + S32768.size a := by
  show i ∈ ((View.whole main_v26).slice (win0_4.rect t)).set ↔ _
  rw [View.set_slice_whole, Rect.mem_set_unit]
  exact Iff.rfl

/-- THE RESULT OF THE REGION: every entry, padding included, is `rowProb` of its row of sums. -/
theorem region_result (c : Dev nD) : (dats m 0 c).arrAt 4 cfg0.N
    = tileOut (V m c main_v24) (V m c main_arg4) (V m c main_v25) (V m c main_arg6) :=
  (dats m 0 c).arrAt_eq_of_cover 4 _ (fun t _ => flushed_eq m c t) fun i => by
    have hN : cfg0.N = 489 := N_0
    have hi : (i 0).val < 16023552 := (i 0).isLt
    refine ⟨⟨(i 0).val / 32768, by rw [hN]; omega⟩, flush0_4 _, ?_⟩
    rw [mem_tile]
    intro a
    obtain ⟨-, -, -, -, -, e5⟩ := idx_facts ⟨(i 0).val / 32768, by rw [hN]; omega⟩
    match a with
    | ⟨0, _⟩ =>
      show win0_4.index ⟨(i 0).val / 32768, _⟩ (0 : Fin 1) * 32768 ≤ (i 0).val
        ∧ (i 0).val < win0_4.index ⟨(i 0).val / 32768, _⟩ (0 : Fin 1) * 32768 + 32768
      rw [e5]
      show (i 0).val / 32768 * 32768 ≤ (i 0).val ∧ (i 0).val < (i 0).val / 32768 * 32768 + 32768
      omega

end Cert.KernelIdeal.Hand

end
-- ==== Proof.HostStages.lean ====
/-
  The host lines before the kernel's region, as functions of the argument arrays, and read at an index.

  The two rows of the index array are cut out, flattened and zero-padded to 489 tiles of 32768 edges; a negative
  word is wrapped; each table is first projected through its half of w1 (rows 0..7 for the demand table, rows
  8..15 for the measurement table) and the projected tables are then gathered by edge and added.  At an edge
  below 16000000 the padding is not reached, and entry (e, j) of the sum is
      Σ_{k<8} zd[r,k] · w1[k,j]  +  Σ_{k<8} zm[c,k] · w1[8+k,j]
  with r and c the edge's two nodes: the gather of a projected table is the projection of the gathered row.
-/
import proofs.«102454_j81071802679525_2_alg».proof.Proof.Gen.KernelIdeal
import proofs.«102454_j81071802679525_2_alg».proof.Proof.EdgeSpec
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.Hand

open Cert.KernelIdeal Cert.KernelIdeal.Gen
open Idealize.ShloMosaic Idealize.ShloMosaic.ValueIdx Idealize.ShloMosaic.RowGather
open Cert.EdgeSpec

variable {F : FTy → Type} [FloatOps F]

/-- Row 0 of the index array (the demand ends), flattened and zero-padded to a whole number of tiles. -/
def paddedRow0 (x2 : IVec S2x16000000 32) : IVec S16023552 32 :=
  pad S16023552 ![0] ![23552] ![0]
    (shapeCast S16000000 (extractStridedSlice S1x16000000 ![0, 0] x2 slices_S2x16000000_S1x16000000_0_0) shapeCasts_S1x16000000_S16000000)
    (id (constantI S_ 32 0#32)) pads_S16000000_S16023552_0235520 h_S_

/-- Row 1 of the index array (the measurement ends), flattened and zero-padded likewise. -/
def paddedRow1 (x2 : IVec S2x16000000 32) : IVec S16023552 32 :=
  pad S16023552 ![0] ![23552] ![0]
    (shapeCast S16000000 (extractStridedSlice S1x16000000 ![1, 0] x2 slices_S2x16000000_S1x16000000_1_0) shapeCasts_S1x16000000_S16000000)
    (id (constantI S_ 32 0#32)) pads_S16000000_S16023552_0235520 h_S_

/-- The gather's start indices from a flat index vector: negative words wrapped, laid as a column. -/
def startColumn (p : IVec S16023552 32) : IVec S16023552x1 32 :=
  broadcastInDim S16023552x1 ![0] bcast_S16023552_S16023552x1_0
    (select (cmpi .slt p (broadcastInDim S16023552 ![] bcast_S_S16023552 (constantI S_ 32 0#32)))
      (addi p (broadcastInDim S16023552 ![] bcast_S_S16023552 (constantI S_ 32 100000#32))) p)

/-- A node table projected through an 8 × 8 block of the first layer's weights. -/
def projected (z : FVec F S100000x8 .f32) (w : FVec F S8x8 .f32) : FVec F S100000x8 .f32 :=
  Host.dotGeneral dot_S100000x8_S8x8_S100000x8_1_0_0_1_n_n none z w

/-- The array the region's first window stages: per padded edge, the two gathered projected rows added. -/
def edgeSums (x0 x1 : FVec F S100000x8 .f32) (x2 : IVec S2x16000000 32) (x3 : FVec F S16x8 .f32) : FVec F S16023552x8 .f32 :=
  addf
    (Host.gather gather_S100000x8_S16023552x1_S16023552x8_1_0_n_n_0_1_18
      (projected x0 (extractStridedSlice S8x8 ![0, 0] x3 slices_S16x8_S8x8_0_0)) (startColumn (paddedRow0 x2)))
    (Host.gather gather_S100000x8_S16023552x1_S16023552x8_1_0_n_n_0_1_18
      (projected x1 (extractStridedSlice S8x8 ![8, 0] x3 slices_S16x8_S8x8_8_0)) (startColumn (paddedRow1 x2)))

/-! ## Read at an index -/

/-- Below the padding the padded demand row is the index array's row 0. -/
theorem paddedRow0_apply (x2 : IVec S2x16000000 32) (e' : Fin 16023552) (e : Fin 16000000) (he : e'.val = e.val) :
    paddedRow0 x2 (ix1 e') = x2 (ix2 (0 : Fin 2) e) := by
  unfold paddedRow0
  refine (pad_apply_of_inside _ _ _ _ _ pads_S16000000_S16023552_0235520 h_S_ (ix1 e') (ix1 e) (fun a => ?_)).trans ?_
  · match a with
    | ⟨0, _⟩ => show e'.val = 0 + e.val * (0 + 1); omega
  refine (shapeCast_apply _ shapeCasts_S1x16000000_S16000000 (ix1 e) (ix2 (0 : Fin 1) e) (by
    rw [Shape.rowMajor_val_two, Shape.rowMajor_val_one]; show 0 * 16000000 + e.val = e.val; omega)).trans ?_
  exact extractStridedSlice_apply _ x2 slices_S2x16000000_S1x16000000_0_0 (ix2 (0 : Fin 1) e) (ix2 (0 : Fin 2) e) (fun a => by
    match a with
    | ⟨0, _⟩ => rfl
    | ⟨1, _⟩ => show e.val = 0 + e.val; omega)

/-- Below the padding the padded measurement row is the index array's row 1. -/
theorem paddedRow1_apply (x2 : IVec S2x16000000 32) (e' : Fin 16023552) (e : Fin 16000000) (he : e'.val = e.val) :
    paddedRow1 x2 (ix1 e') = x2 (ix2 (1 : Fin 2) e) := by
  unfold paddedRow1
  refine (pad_apply_of_inside _ _ _ _ _ pads_S16000000_S16023552_0235520 h_S_ (ix1 e') (ix1 e) (fun a => ?_)).trans ?_
  · match a with
    | ⟨0, _⟩ => show e'.val = 0 + e.val * (0 + 1); omega
  refine (shapeCast_apply _ shapeCasts_S1x16000000_S16000000 (ix1 e) (ix2 (0 : Fin 1) e) (by
    rw [Shape.rowMajor_val_two, Shape.rowMajor_val_one]; show 0 * 16000000 + e.val = e.val; omega)).trans ?_
  exact extractStridedSlice_apply _ x2 slices_S2x16000000_S1x16000000_1_0 (ix2 (0 : Fin 1) e) (ix2 (1 : Fin 2) e) (fun a => by
    match a with
    | ⟨0, _⟩ => rfl
    | ⟨1, _⟩ => show e.val = 0 + e.val; omega)

/-- The start index of padded edge `e'` is its wrapped index word. -/
theorem startColumn_apply (p : IVec S16023552 32) (e' : Fin 16023552) :
    startColumn p (ix2 e' (0 : Fin 1)) = wrapIx (p (ix1 e')) := by
  unfold startColumn
  refine (broadcastInDim_apply _ bcast_S16023552_S16023552x1_0 _ (ix2 e' (0 : Fin 1)) (ix1 e') (fun a => by
    match a with
    | ⟨0, _⟩ => show e'.val = if (16023552 : Nat) = 1 then 0 else e'.val; rw [if_neg (by decide)])).trans ?_
  rfl

theorem lhs_proj_0 (i : S100000x8.Idx) (q : dot_S100000x8_S8x8_S100000x8_1_0_0_1_n_n.contr.Idx) :
    (dot_S100000x8_S8x8_S100000x8_1_0_0_1_n_n.lhsIdx i q 0).val = (i 0).val := by
  unfold DotDims.lhsIdx
  rw [dif_neg (show ¬(0 : Fin S100000x8.rank) ∈ dot_S100000x8_S8x8_S100000x8_1_0_0_1_n_n.lhsBatch by decide), dif_pos (show (0 : Fin S100000x8.rank) ∈ dot_S100000x8_S8x8_S100000x8_1_0_0_1_n_n.lhsNonContracting by decide)]
  rfl
theorem lhs_proj_1 (i : S100000x8.Idx) (q : dot_S100000x8_S8x8_S100000x8_1_0_0_1_n_n.contr.Idx) :
    (dot_S100000x8_S8x8_S100000x8_1_0_0_1_n_n.lhsIdx i q 1).val = (q ⟨0, by decide⟩).val :=
  dot_S100000x8_S8x8_S100000x8_1_0_0_1_n_n.lhsIdx_val_of_single rfl i q
theorem rhs_proj_0 (i : S100000x8.Idx) (q : dot_S100000x8_S8x8_S100000x8_1_0_0_1_n_n.contr.Idx) :
    (dot_S100000x8_S8x8_S100000x8_1_0_0_1_n_n.rhsIdx i q 0).val = (q ⟨0, by decide⟩).val :=
  dot_S100000x8_S8x8_S100000x8_1_0_0_1_n_n.rhsIdx_val_of_single rfl i q
theorem rhs_proj_1 (i : S100000x8.Idx) (q : dot_S100000x8_S8x8_S100000x8_1_0_0_1_n_n.contr.Idx) :
    (dot_S100000x8_S8x8_S100000x8_1_0_0_1_n_n.rhsIdx i q 1).val = (i 1).val := by
  unfold DotDims.rhsIdx
  rw [dif_neg (show ¬(1 : Fin S8x8.rank) ∈ dot_S100000x8_S8x8_S100000x8_1_0_0_1_n_n.rhsBatch by decide), dif_pos (show (1 : Fin S8x8.rank) ∈ dot_S100000x8_S8x8_S100000x8_1_0_0_1_n_n.rhsNonContracting by decide)]
  rfl

/-- A projected table at (n, j): row n of the table against column j of the weight block. -/
theorem projected_apply (z : FVec Ideal S100000x8 .f32) (w : FVec Ideal S8x8 .f32) (n : Fin 100000) (j : Fin 8) :
    projected (F := Ideal) z w (ix2 n j) = ∑ k : Fin 8, z (ix2 n k) * w (ix2 k j) := by
  unfold projected
  simp only [Host.dotGeneral]
  rw [Ideal.dotGeneral_apply, ← Equiv.sum_comp (ValueIdx.contrEquiv1 dot_S100000x8_S8x8_S100000x8_1_0_0_1_n_n 8 rfl rfl).symm]
  refine Finset.sum_congr rfl fun k _ => ?_
  have hk := ValueIdx.contrEquiv1_symm_val dot_S100000x8_S8x8_S100000x8_1_0_0_1_n_n 8 rfl rfl k
  have el : dot_S100000x8_S8x8_S100000x8_1_0_0_1_n_n.lhsIdx (ix2 n j) ((ValueIdx.contrEquiv1 dot_S100000x8_S8x8_S100000x8_1_0_0_1_n_n 8 rfl rfl).symm k) = ix2 n k := funext fun a => Fin.ext (by
    match a with
    | ⟨0, _⟩ => exact lhs_proj_0 _ _
    | ⟨1, _⟩ => exact (lhs_proj_1 _ _).trans hk)
  have er : dot_S100000x8_S8x8_S100000x8_1_0_0_1_n_n.rhsIdx (ix2 n j) ((ValueIdx.contrEquiv1 dot_S100000x8_S8x8_S100000x8_1_0_0_1_n_n 8 rfl rfl).symm k) = ix2 k j := funext fun a => Fin.ext (by
    match a with
    | ⟨0, _⟩ => exact (rhs_proj_0 _ _).trans hk
    | ⟨1, _⟩ => exact rhs_proj_1 _ _)
  rw [el, er]

/-- The upper 8 × 8 block of the first layer's weights. -/
theorem upper_block (x3 : FVec Ideal S16x8 .f32) (k j : Fin 8) :
    extractStridedSlice S8x8 ![0, 0] x3 slices_S16x8_S8x8_0_0 (ix2 k j) = x3 (ix2 (Fin.castAdd 8 k) j) :=
  extractStridedSlice_apply _ x3 slices_S16x8_S8x8_0_0 (ix2 k j) (ix2 (Fin.castAdd 8 k) j) (fun a => by
    match a with
    | ⟨0, _⟩ => show k.val = 0 + k.val; omega
    | ⟨1, _⟩ => show j.val = 0 + j.val; omega)

/-- The lower 8 × 8 block of the first layer's weights. -/
theorem lower_block (x3 : FVec Ideal S16x8 .f32) (k j : Fin 8) :
    extractStridedSlice S8x8 ![8, 0] x3 slices_S16x8_S8x8_8_0 (ix2 k j) = x3 (ix2 (Fin.natAdd 8 k) j) :=
  extractStridedSlice_apply _ x3 slices_S16x8_S8x8_8_0 (ix2 k j) (ix2 (Fin.natAdd 8 k) j) (fun a => by
    match a with
    | ⟨0, _⟩ => show 8 + k.val = 8 + k.val; rfl
    | ⟨1, _⟩ => show j.val = 0 + j.val; omega)

/-- THE STAGED ARRAY AT AN EDGE BELOW THE PADDING: the specification's two 8-term sums. -/
theorem edgeSums_apply (x0 x1 : FVec Ideal S100000x8 .f32) (x2 : IVec S2x16000000 32) (x3 : FVec Ideal S16x8 .f32)
    (e' : Fin 16023552) (e : Fin 16000000) (he : e'.val = e.val) (j : Fin 8) :
    edgeSums (F := Ideal) x0 x1 x2 x3 (ix2 e' j)
      = (∑ k : Fin 8, x0 (ix2 (nodeOf (x2 (ix2 (0 : Fin 2) e))) k) * x3 (ix2 (Fin.castAdd 8 k) j))
        + (∑ k : Fin 8, x1 (ix2 (nodeOf (x2 (ix2 (1 : Fin 2) e))) k) * x3 (ix2 (Fin.natAdd 8 k) j)) := by
  unfold edgeSums
  show Host.gather gather_S100000x8_S16023552x1_S16023552x8_1_0_n_n_0_1_18 _ _ (ix2 e' j)
      + Host.gather gather_S100000x8_S16023552x1_S16023552x8_1_0_n_n_0_1_18 _ _ (ix2 e' j) = _
  refine congrArg₂ (· + ·) ?_ ?_
  · refine (gather_rows_apply (by decide) _ _ _ e' j).trans ?_
    rw [startColumn_apply, paddedRow0_apply x2 e' e he, projected_apply]
    refine Finset.sum_congr rfl fun k _ => ?_
    rw [upper_block]
    rfl
  · refine (gather_rows_apply (by decide) _ _ _ e' j).trans ?_
    rw [startColumn_apply, paddedRow1_apply x2 e' e he, projected_apply]
    refine Finset.sum_congr rfl fun k _ => ?_
    rw [lower_block]
    rfl

/-- The second layer's weights, flattened from a column to a vector, at j. -/
theorem flat_w2_apply {α : Type} (x5 : S8x1.Idx → α) (j : Fin 8) :
    shapeCast S8 x5 shapeCasts_S8x1_S8 (ix1 j) = x5 (ix2 j (0 : Fin 1)) :=
  shapeCast_apply x5 shapeCasts_S8x1_S8 (ix1 j) (ix2 j (0 : Fin 1)) (by
    rw [Shape.rowMajor_val_two, Shape.rowMajor_val_one]; show j.val * 1 + 0 = j.val; omega)

end Cert.KernelIdeal.Hand

end
-- ==== Proof.HostEntry.lean ====
/-
  What the region finds in the two arrays the host lines computed for it: the first window's array is the edge
  sums of HostStages, the third window's the second layer's weights flattened to a vector.
-/
import proofs.«102454_j81071802679525_2_alg».proof.Proof.Gen.KernelIdeal.Frame
import proofs.«102454_j81071802679525_2_alg».proof.Proof.HostStages
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 65536 in
set_option maxHeartbeats 4000000 in
/-- The array the first window stages is the edge sums of the argument arrays. -/
theorem V_edgeSums (c : Dev nD) :
    (V m c main_v24 : S16023552x8.Idx → Elt F .f32)
      = edgeSums (m ((c : Thread nD τ).loc main_arg0)) (m ((c : Thread nD τ).loc main_arg1))
          (m ((c : Thread nD τ).loc main_arg2)) (m ((c : Thread nD τ).loc main_arg3)) := by
  dsimp only [V, V0]
  simp only [hostOps0, hostOps0_1, hostOps0_2, hostOps0_3, hostOps0_4, List.flatten_cons, List.flatten_nil,
    List.append_nil, List.cons_append, List.nil_append]
  after_results
  rfl

set_option maxRecDepth 65536 in
set_option maxHeartbeats 4000000 in
/-- The array the third window stages is the second layer's weights as a vector. -/
theorem V_flat_w2 (c : Dev nD) :
    (V m c main_v25 : S8.Idx → Elt F .f32) = shapeCast S8 (m ((c : Thread nD τ).loc main_arg5)) shapeCasts_S8x1_S8 := by
  dsimp only [V, V0]
  simp only [hostOps0, hostOps0_1, hostOps0_2, hostOps0_3, hostOps0_4, List.flatten_cons, List.flatten_nil,
    List.append_nil, List.cons_append, List.nil_append]
  after_results
  rfl

end Cert.KernelIdeal.Hand

end
-- ==== Proof.KernelIsSpec.lean ====
/-
  The kernel's result as a function of the argument arrays IS the edge decoder of EdgeSpec.

  The program's result is the first 16000000 entries of the region's array.  Entry e of it is `rowProb` of row
  e of the edge sums, with the first bias, the flattened second-layer weights and the second bias; below the
  padding row e of the sums is the specification's two 8-term sums for edge e's two nodes, and the flattened
  weight at j is w2[j, 0]: term by term the specification's logit under 1 / (1 + e^(-x)).
-/
import proofs.«102454_j81071802679525_2_alg».proof.Proof.HostStages
import proofs.«102454_j81071802679525_2_alg».proof.Proof.TileBlocks
import proofs.«102454_j81071802679525_2_alg».proof.Proof.EdgeSpec

noncomputable section

namespace Cert.KernelIdeal.Hand

open Cert.KernelIdeal Cert.KernelIdeal.Gen
open Idealize.ShloMosaic Idealize.ShloMosaic.ValueIdx
open Cert.EdgeSpec

/-- THE KERNEL'S RESULT is the edge decoder of the argument arrays. -/
theorem result_eq (x0 x1 : FVec Ideal S100000x8 .f32) (x2 : IVec S2x16000000 32) (x3 : FVec Ideal S16x8 .f32)
    (x4 : FVec Ideal S8 .f32) (x5 : FVec Ideal S8x1 .f32) (x6 : FVec Ideal S1 .f32) :
    extractStridedSlice S16000000 ![0]
        (tileOut (edgeSums (F := Ideal) x0 x1 x2 x3) x4 (shapeCast S8 x5 shapeCasts_S8x1_S8) x6) slices_S16023552_S16000000_0
      = edgeProb x0 x1 x2 x3 x4 x5 x6 := by
  funext i
  obtain ⟨e, rfl⟩ : ∃ e : Fin 16000000, i = ix1 e := ⟨i 0, eq_ix1 i⟩
  have he : e.val < 16023552 := by have := e.isLt; omega
  refine (extractStridedSlice_apply _ _ slices_S16023552_S16000000_0 (ix1 e) (ix1 (⟨e.val, he⟩ : Fin 16023552)) (fun a => by
    match a with
    | ⟨0, _⟩ => show e.val = 0 + e.val; omega)).trans ?_
  unfold tileOut edgeProb rowProb logit EdgeSpec.hidden
  refine congrArg Ideal.logistic ?_
  refine congrArg₂ (· + ·) (Finset.sum_congr rfl fun j _ => ?_) rfl
  exact congrArg₂ (· * ·)
    (congrArg (fun s => max (s + x4 (ix1 j)) 0) (edgeSums_apply x0 x1 x2 x3 _ e rfl j))
    (flat_w2_apply x5 j)

end Cert.KernelIdeal.Hand

end
-- ==== Proof.KernelRun.lean ====
/-
  The idealized kernel's run, read: every weakly fair execution ends with the result array at the edge decoder
  of the argument arrays and the arguments unchanged.  The host line after the region keeps the first 16000000
  entries of the region's array; that array is `tileOut` of what the region found (TileBlocks), which the host
  lines before the region computed from the arguments (HostEntry); and that function of the arguments is the
  specification (KernelIsSpec).
-/
import proofs.«102454_j81071802679525_2_alg».proof.Proof.Gen.KernelIdeal.Frame
import proofs.«102454_j81071802679525_2_alg».proof.Proof.TileBlocks
import proofs.«102454_j81071802679525_2_alg».proof.Proof.HostEntry
import proofs.«102454_j81071802679525_2_alg».proof.Proof.KernelIsSpec
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Cert.EdgeSpec

variable (m : (ℓ : Loc nD τ sig) → Buf (Elt Ideal) ℓ)

/-- The host line after the region: the result is the region's array cut to the true number of edges. -/
theorem tail_result (c : Dev nD) :
    Pipeline.afterTail₀ cfgs (dats m) 0 (V0 m) [hostOps1] c main_v27
      = extractStridedSlice S16000000 ![0] ((dats m 0 c).arrAt 4 cfg0.N) slices_S16023552_S16000000_0 := by
  unfold Pipeline.afterTail₀
  show StableHlo.after hostOps1 _ (Proc.devRef .tc main_v27) = _
  after_results
  exact congrArg (fun x => extractStridedSlice S16000000 ![0] x slices_S16023552_S16000000_0)
    (Pipeline.withArrays_arr spec0 launch0.win.arr_inj c _ _ 4)

/-- The program's result as the specification's function of the arguments. -/
theorem kernel_value (c : Dev nD) :
    extractStridedSlice S16000000 ![0] ((dats m 0 c).arrAt 4 cfg0.N) slices_S16023552_S16000000_0
      = edgeProb (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [region_result, V_edgeSums, V_flat_w2, V_main_arg4, V_main_arg6]
  exact result_eq _ _ _ _ _ _ _

/-- THE RUN, READ. -/
theorem run (ρ : Dev nD → PrngReg) :
    θ_run defs (onTc (τ := τ) (main (F := Ideal))) ⟨m, fun _ => 0, ρ⟩ fun r => ∀ c : Dev nD,
      r.2.mem ((c.tc : Thread nD τ).loc main_v27)
        = edgeProb (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v27 (Pipeline.mem_restRefs_of main_v27 (by decide) (by decide))).trans (tail_result m c)).trans
        (kernel_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c)))⟩)
    (run_main m ρ)

end Cert.KernelIdeal.Hand

end
-- ==== Proof.lean ====
/-
  An edge decoder: for each of 16000000 edges, the embeddings of its demand node and of its measurement node
  are joined (16 numbers), sent through a layer 16 → 8 with bias and max(·, 0), then through a layer 8 → 1 with
  bias, and through 1 / (1 + e^(-x)).

  The reference does exactly that, edge by edge.  The kernel first multiplies each node table by its half of the
  first layer's weights (rows 0..7 for demand, rows 8..15 for measurement), gathers the two projected rows per
  edge and adds them, and runs the rest — bias, max, the 8-term weighted sum, bias, 1 / (1 + e^(-x)) — in tiles of
  32768 edges over an edge list zero-padded to 489 tiles, cutting the padding off at the end.

  On the extended reals the two are one function of the arguments (EdgeSpec.edgeProb): a gathered row of a
  projected table is the projection of the gathered row, and the reference's 16-term contraction splits at the
  seam of the joined embedding into the kernel's two 8-term sums — a regrouping of a finite sum, valid in any
  commutative additive monoid, so nothing is asked of the entries.  Both programs read an edge's node the same
  way: the index word signed, a negative one moved up by 100000, the result clamped into the table.

  The three frames are the generated ones (the reference's is its generated run with the result dropped); the
  idealization rewrote nothing, so there is nothing to preserve.
-/
import proofs.«102454_j81071802679525_2_alg».proof.Defs
import proofs.«102454_j81071802679525_2_alg».proof.Proof.Gen.Kernel
import proofs.«102454_j81071802679525_2_alg».proof.Proof.Gen.Kernel.Skeleton
import proofs.«102454_j81071802679525_2_alg».proof.Proof.Gen.Kernel.Launch
import proofs.«102454_j81071802679525_2_alg».proof.Proof.Gen.Kernel.Points
import proofs.«102454_j81071802679525_2_alg».proof.Proof.Gen.Kernel.Frame
import proofs.«102454_j81071802679525_2_alg».proof.Proof.Gen.KernelIdeal
import proofs.«102454_j81071802679525_2_alg».proof.Proof.Gen.KernelIdeal.Skeleton
import proofs.«102454_j81071802679525_2_alg».proof.Proof.Gen.KernelIdeal.Launch
import proofs.«102454_j81071802679525_2_alg».proof.Proof.Gen.KernelIdeal.Points
import proofs.«102454_j81071802679525_2_alg».proof.Proof.Gen.KernelIdeal.Frame
import proofs.«102454_j81071802679525_2_alg».proof.Proof.Gen.ReferenceIdeal
import proofs.«102454_j81071802679525_2_alg».proof.Proof.Gen.Pre_finite_inputs
import proofs.«102454_j81071802679525_2_alg».proof.Proof.Gen.ReferenceIdeal.Run
import proofs.«102454_j81071802679525_2_alg».proof.Proof.Gen.ReferenceIdeal.Read
import proofs.«102454_j81071802679525_2_alg».proof.Proof.EdgeSpec
import proofs.«102454_j81071802679525_2_alg».proof.Proof.RefEdge
import proofs.«102454_j81071802679525_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the edge decoder of the (agreeing) arguments. -/
theorem algebraic : Cert.algebraic_KernelIdeal_ReferenceIdeal := by
  intro m ρ m' ρ' _ hagree
  refine ⟨fun c => Cert.EdgeSpec.edgeProb
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v34_eq (F := Ideal) _ _ _ _ _ _ _).trans ?_
  rw [Cert.ReferenceIdeal.RefValue.result_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
